-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S1x256x56x56 : Shape := ⟨4, ![1, 256, 56, 56]⟩
abbrev S256x56x56 : Shape := ⟨3, ![256, 56, 56]⟩
abbrev S256x56 : Shape := ⟨2, ![256, 56]⟩
abbrev S256x56x1 : Shape := ⟨3, ![256, 56, 1]⟩
abbrev S256x1 : Shape := ⟨2, ![256, 1]⟩
abbrev S256x1x1 : Shape := ⟨3, ![256, 1, 1]⟩
abbrev S1x1 : Shape := ⟨2, ![1, 1]⟩
abbrev S1x1x1 : Shape := ⟨3, ![1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x56x56, .f32⟩
  | .local _ .vmem, ⟨3, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x256x56x56_S1x256x56x56_0_0_0_0 : ∀ a, (![0, 0, 0, 0] : Fin 4 → Nat) a + S1x256x56x56.size a ≤ S1x256x56x56.size a
  h_S1x256x56x56 : 0 < S1x256x56x56.numel
  shapeCasts_S1x256x56x56_S256x56x56 : S1x256x56x56.ShapeCasts S256x56x56
  reduces_S256x56x56_S256x56 : S256x56x56.Reduces [2] S256x56
  shapeCasts_S256x56_S256x56x1 : S256x56.ShapeCasts S256x56x1
  reduces_S256x56x1_S256x1 : S256x56x1.Reduces [1] S256x1
  shapeCasts_S256x1_S256x1x1 : S256x1.ShapeCasts S256x1x1
  reduces_S256x1x1_S1x1 : S256x1x1.Reduces [0] S1x1
  shapeCasts_S1x1_S1x1x1 : S1x1.ShapeCasts S1x1x1
  broadcasts_S1x1x1_S256x56x56 : S1x1x1.Broadcasts S256x56x56
  shapeCasts_S256x56x56_S1x256x56x56 : S256x56x56.ShapeCasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S64x256x56x56.size a
  hwx0_0 : ∀ i : grid0.Coords, EltTy.bits .f32 = 32 ∨ (Rect.block (s := S64x256x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x56x56.size a ≤ S64x256x56x56.size a
  hwx0_1 : ∀ i : grid0.Coords, EltTy.bits .f32 = 32 ∨ (Rect.block (s := S64x256x56x56) S1x256x56x56.size (cc0_transform_1 i) (hinb0_1 i)).WholeWords (EltTy.packing .f32)

variable [Facts₀]

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x56x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64x802816 : Shape := ⟨2, ![64, 802816]⟩
abbrev S_ : Shape := ⟨0, ![]⟩
abbrev S64 : Shape := ⟨1, ![64]⟩
abbrev S64x1x1x1 : Shape := ⟨4, ![64, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64x802816, .f32⟩
  | .hbm, ⟨2, _⟩ => ⟨S_, .f32⟩
  | .hbm, ⟨3, _⟩ => ⟨S64, .f32⟩
  | .hbm, ⟨4, _⟩ => ⟨S64x1x1x1, .f32⟩
  | .hbm, ⟨5, _⟩ => ⟨S_, .f32⟩
  | .hbm, ⟨6, _⟩ => ⟨S64, .f32⟩
  | .hbm, ⟨7, _⟩ => ⟨S64x1x1x1, .f32⟩
  | .hbm, ⟨8, _⟩ => ⟨S64x1x1x1, .f32⟩
  | .hbm, ⟨9, _⟩ => ⟨S64x256x56x56, .f32⟩
  | .hbm, ⟨10, _⟩ => ⟨S64x256x56x56, .f32⟩
  | .hbm, ⟨11, _⟩ => ⟨S_, .f32⟩
  | .hbm, ⟨12, _⟩ => ⟨S64x256x56x56, .f32⟩
  | .hbm, ⟨13, _⟩ => ⟨S64x256x56x56, .f32⟩
  | .hbm, ⟨14, _⟩ => ⟨S64x256x56x56, .f32⟩
  | .hbm, ⟨15, _⟩ => ⟨S64x256x56x56, .f32⟩
  | .hbm, ⟨16, _⟩ => ⟨S_, .f32⟩
  | .hbm, ⟨17, _⟩ => ⟨S64x256x56x56, .f32⟩
  | .hbm, ⟨18, _⟩ => ⟨S64x256x56x56, .f32⟩
  | .hbm, ⟨19, _⟩ => ⟨S64x256x56x56, .f32⟩
  | .hbm, ⟨20, _⟩ => ⟨S_, .f32⟩
  | .hbm, ⟨21, _⟩ => ⟨S64x256x56x56, .f32⟩
  | .hbm, ⟨22, _⟩ => ⟨S64x256x56x56, .f32⟩
  | .hbm, ⟨23, _⟩ => ⟨S_, .f32⟩
  | .hbm, ⟨24, _⟩ => ⟨S64x256x56x56, .f32⟩
  | .hbm, ⟨25, _⟩ => ⟨S64x256x56x56, .f32⟩
  | .hbm, ⟨26, _⟩ => ⟨S_, .f32⟩
  | .hbm, ⟨27, _⟩ => ⟨S64x256x56x56, .f32⟩
  | .hbm, ⟨28, _⟩ => ⟨S64x256x56x56, .f32⟩
  | .hbm, ⟨29, _⟩ => ⟨S64x256x56x56, .f32⟩
  | .hbm, ⟨30, _⟩ => ⟨S64x256x56x56, .f32⟩
  | .hbm, ⟨31, _⟩ => ⟨S_, .f32⟩
  | .hbm, ⟨32, _⟩ => ⟨S64x256x56x56, .f32⟩
  | .hbm, ⟨33, _⟩ => ⟨S64x256x56x56, .f32⟩
  | .hbm, ⟨34, _⟩ => ⟨S64x256x56x56, .f32⟩
  | .hbm, ⟨35, _⟩ => ⟨S64x256x56x56, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64x256x56x56, .f32⟩
  | .hbm, ⟨40, _⟩ => ⟨S64x256x56x56, .f32⟩
  | .hbm, ⟨41, _⟩ => ⟨S_, .f32⟩
  | .hbm, ⟨42, _⟩ => ⟨S64x256x56x56, .f32⟩
  | .hbm, ⟨43, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  shapeCasts_S64x256x56x56_S64x802816 : S64x256x56x56.ShapeCasts S64x802816
  reducesTo_S64x802816_S64_d1 : S64x802816.ReducesTo [1] S64
  h_S_ : 0 < S_.numel
  shapeCasts_S64_S64x1x1x1 : S64.ShapeCasts S64x1x1x1
  bcast_S64x1x1x1_S64x256x56x56_0_1_2_3 : S64x1x1x1.BroadcastsInDim S64x256x56x56 (![0, 1, 2, 3] : Fin 4 → Fin S64x256x56x56.rank)
  bcast_S_S64x256x56x56 : S_.BroadcastsInDim S64x256x56x56 (![] : Fin 0 → Fin S64x256x56x56.rank)

variable [Facts₀]

class Facts : Prop extends Facts₀ where

variable [Facts]
-- ==== Proof.Bounds.lean ====
/-
  Bounds through reductions and re-layings, on the extended reals.

  A minimum-reduction started from +∞ holds, at each result index, the infimum of the source entries that drop to that
  index: a value `z` lies below the result there iff it lies below each of those entries. Hence `z` lies below EVERY
  entry of the result iff it lies below every entry of the source, whichever axes are reduced; and a shape cast only
  re-lays the same entries. So a chain of reductions and casts that ends in one element ends in the infimum of all the
  entries it started from, and no index needs to be followed through it. Dually for a maximum-reduction from −∞ and
  upper bounds. The same reading holds for the one-operand reduce of a host program.
-/
import Idealize.ShloMosaic.PureOps.Ideal
import Idealize.ShloMosaic.PureOps.Ideal.Laws
import Idealize.ShloMosaic.PureOps.Reduce

namespace Cert.Bounds

open Idealize.ShloMosaic

/-- The f32 pattern of +∞ is the top of the extended reals. -/
theorem posInf : Ideal.ofBits .f32 0x7F800000#32 = (⊤ : EReal) := by simp [Ideal.ofBits, Ideal.ieee]

/-- The f32 pattern of −∞ is the bottom of the extended reals. -/
theorem negInf : Ideal.ofBits .f32 0xFF800000#32 = (⊥ : EReal) := by simp [Ideal.ofBits, Ideal.ieee]

section Reductions

variable {s t : Shape} {axes : List (Fin s.rank)}

/-- `z` is below a minimum-reduction from +∞ at `j` iff it is below every source entry that drops to `j`. -/
theorem le_minReduction_iff (src : FVec Ideal s .f32) (h : s.Reduces axes t) (hφ : FKind.Formats .f32)
    (hacc : (0x7F800000#32 : BitVec 32) = FKind.minimumf.neutral .f32 hφ) (j : t.Idx) (z : EReal) :
    z ≤ multiReduction .minimumf axes t src 0x7F800000#32 h hφ hacc j ↔ ∀ i, h.drop i = j → z ≤ src i := by
  rw [multiReduction_minimumf_eq_fold]
  show z ≤ Finset.fold min (Ideal.ofBits .f32 0x7F800000#32) src _ ↔ _
  rw [Finset.le_fold_min, posInf]
  simp

/-- A maximum-reduction from −∞ at `j` is below `z` iff every source entry that drops to `j` is. -/
theorem maxReduction_le_iff (src : FVec Ideal s .f32) (h : s.Reduces axes t) (hφ : FKind.Formats .f32)
    (hacc : (0xFF800000#32 : BitVec 32) = FKind.maximumf.neutral .f32 hφ) (j : t.Idx) (z : EReal) :
    multiReduction .maximumf axes t src 0xFF800000#32 h hφ hacc j ≤ z ↔ ∀ i, h.drop i = j → src i ≤ z := by
  rw [multiReduction_maximumf_eq_fold]
  show Finset.fold max (Ideal.ofBits .f32 0xFF800000#32) src _ ≤ z ↔ _
  rw [Finset.fold_max_le, negInf]
  simp

/-- `z` is below every entry of a minimum-reduction from +∞ iff it is below every entry of its source. -/
theorem forall_le_minReduction_iff (src : FVec Ideal s .f32) (h : s.Reduces axes t) (hφ : FKind.Formats .f32)
    (hacc : (0x7F800000#32 : BitVec 32) = FKind.minimumf.neutral .f32 hφ) (z : EReal) :
    (∀ j, z ≤ multiReduction .minimumf axes t src 0x7F800000#32 h hφ hacc j) ↔ ∀ i, z ≤ src i :=
  ⟨fun H i => (le_minReduction_iff src h hφ hacc (h.drop i) z).1 (H _) i rfl,
   fun H j => (le_minReduction_iff src h hφ hacc j z).2 fun i _ => H i⟩

/-- Every entry of a maximum-reduction from −∞ is below `z` iff every entry of its source is. -/
theorem forall_maxReduction_le_iff (src : FVec Ideal s .f32) (h : s.Reduces axes t) (hφ : FKind.Formats .f32)
    (hacc : (0xFF800000#32 : BitVec 32) = FKind.maximumf.neutral .f32 hφ) (z : EReal) :
    (∀ j, multiReduction .maximumf axes t src 0xFF800000#32 h hφ hacc j ≤ z) ↔ ∀ i, src i ≤ z :=
  ⟨fun H i => (maxReduction_le_iff src h hφ hacc (h.drop i) z).1 (H _) i rfl,
   fun H j => (maxReduction_le_iff src h hφ hacc j z).2 fun i _ => H i⟩

/-- A shape cast re-lays the entries: a bound on all of them is a bound on all of the source's. -/
theorem forall_shapeCast_iff {α : Type} (v : s.Idx → α) (h : s.ShapeCasts t) (p : α → Prop) :
    (∀ j, p (shapeCast t v h j)) ↔ ∀ i, p (v i) := by
  unfold shapeCast
  constructor
  · intro H i
    have := H ((Shape.reshapeEquiv h).symm i)
    rwa [Equiv.apply_symm_apply] at this
  · intro H j; exact H _

/-- The two uses of it here: lower bounds, -/
theorem forall_le_shapeCast_iff (v : s.Idx → EReal) (h : s.ShapeCasts t) (z : EReal) :
    (∀ j, z ≤ shapeCast t v h j) ↔ ∀ i, z ≤ v i := forall_shapeCast_iff v h (z ≤ ·)

/-- and upper bounds. -/
theorem forall_shapeCast_le_iff (v : s.Idx → EReal) (h : s.ShapeCasts t) (z : EReal) :
    (∀ j, shapeCast t v h j ≤ z) ↔ ∀ i, v i ≤ z := forall_shapeCast_iff v h (· ≤ z)

/-- The host's one-operand minimum-reduce from an initial value +∞: `z` is below it at `j` iff it is below every
    operand entry that drops to `j`. -/
theorem le_hostMin_iff {u : Shape} (x : s.Idx → EReal) (init : u.Idx → EReal) (h : s.ReducesTo axes t)
    (hu : 0 < u.numel) (hinit : init (Shape.Idx.first hu) = ⊤) (j : t.Idx) (z : EReal) :
    z ≤ Host.reduce (FloatOps.minimumf (F := Ideal) (φ := .f32)) x init h hu j ↔ ∀ i, h.drop i = j → z ≤ x i := by
  rw [Host.reduce_eq_fold]
  show z ≤ Finset.fold min (init (Shape.Idx.first hu)) x _ ↔ _
  rw [Finset.le_fold_min, hinit]
  simp

/-- The host's one-operand maximum-reduce from an initial value −∞, dually. -/
theorem hostMax_le_iff {u : Shape} (x : s.Idx → EReal) (init : u.Idx → EReal) (h : s.ReducesTo axes t)
    (hu : 0 < u.numel) (hinit : init (Shape.Idx.first hu) = ⊥) (j : t.Idx) (z : EReal) :
    Host.reduce (FloatOps.maximumf (F := Ideal) (φ := .f32)) x init h hu j ≤ z ↔ ∀ i, h.drop i = j → x i ≤ z := by
  rw [Host.reduce_eq_fold]
  show Finset.fold max (init (Shape.Idx.first hu)) x _ ≤ z ↔ _
  rw [Finset.fold_max_le, hinit]
  simp

end Reductions

section Lattice

variable {ι κ : Type}

/-- A value with the universal property of the infimum of a family is that infimum. -/
theorem eq_iInf_of_forall_le_iff (v : EReal) (f : ι → EReal) (H : ∀ z, z ≤ v ↔ ∀ i, z ≤ f i) : v = ⨅ i, f i :=
  eq_of_forall_le_iff fun z => (H z).trans le_iInf_iff.symm

/-- A value with the universal property of the supremum of a family is that supremum. -/
theorem eq_iSup_of_forall_le_iff (v : EReal) (f : ι → EReal) (H : ∀ z, v ≤ z ↔ ∀ i, f i ≤ z) : v = ⨆ i, f i :=
  eq_of_forall_ge_iff fun z => (H z).trans iSup_le_iff.symm

/-- The infimum over a re-indexing that reaches exactly the indices with a property `p` is the infimum over those. -/
theorem iInf_comp_eq (x : κ → EReal) (e : ι → κ) (p : κ → Prop) (hp : ∀ y, p (e y))
    (hs : ∀ i, p i → ∃ y, e y = i) : (⨅ y, x (e y)) = ⨅ i, ⨅ (_ : p i), x i := by
  apply le_antisymm
  · refine le_iInf₂ fun i hi => ?_
    obtain ⟨y, rfl⟩ := hs i hi
    exact iInf_le _ y
  · exact le_iInf fun y => iInf₂_le (e y) (hp y)

/-- The supremum over a re-indexing that reaches exactly the indices with a property `p` is the supremum over those. -/
theorem iSup_comp_eq (x : κ → EReal) (e : ι → κ) (p : κ → Prop) (hp : ∀ y, p (e y))
    (hs : ∀ i, p i → ∃ y, e y = i) : (⨆ y, x (e y)) = ⨆ i, ⨆ (_ : p i), x i := by
  apply le_antisymm
  · exact iSup_le fun y => le_iSup₂ (f := fun i (_ : p i) => x i) (e y) (hp y)
  · refine iSup₂_le fun i hi => ?_
    obtain ⟨y, rfl⟩ := hs i hi
    exact le_iSup (fun y => x (e y)) y

end Lattice

end Cert.Bounds
-- ==== Proof.KernelBlock.lean ====
/-
  The extrema the kernel's body takes of ONE block.

  A block is one whole sample: the 256 × 56 × 56 entries of the input with one first coordinate. The body takes the
  block's minimum axis after axis (the last axis, then the middle one, then the first, each from +∞, a shape cast
  between them) and its maximum likewise from −∞. Axis after axis or at once, the three-fold minimum is the infimum of
  ALL the block's entries and the three-fold maximum their supremum: a lower bound of the entries passes through every
  reduction and every cast unchanged (Bounds.lean), and the chain ends in a vector with a single entry.
-/
import proofs.«135284_j55671366090844_2_alg».proof.Proof.Gen.KernelIdeal.Skeleton
import proofs.«135284_j55671366090844_2_alg».proof.Proof.Bounds

noncomputable section

namespace Cert.KernelBlock

open Cert.KernelIdeal Cert.KernelIdeal.Gen Idealize.ShloMosaic Cert.Bounds

/-- The block's minimum as the body takes it: over the last axis, the middle axis, the first axis, as a [1,1,1] vector. -/
def blkMin (v0 : FVec Ideal S1x256x56x56 .f32) : FVec Ideal S1x1x1 .f32 :=
  shapeCast S1x1x1 (multiReduction .minimumf [0] S1x1 (shapeCast S256x1x1 (multiReduction .minimumf [1] S256x1
    (shapeCast S256x56x1 (multiReduction .minimumf [2] S256x56 (shapeCast S256x56x56 v0 shapeCasts_S1x256x56x56_S256x56x56)
      0x7F800000#32 reduces_S256x56x56_S256x56 (.inl rfl) rfl) shapeCasts_S256x56_S256x56x1)
    0x7F800000#32 reduces_S256x56x1_S256x1 (.inl rfl) rfl) shapeCasts_S256x1_S256x1x1)
    0x7F800000#32 reduces_S256x1x1_S1x1 (.inl rfl) rfl) shapeCasts_S1x1_S1x1x1

/-- The block's maximum as the body takes it. -/
def blkMax (v0 : FVec Ideal S1x256x56x56 .f32) : FVec Ideal S1x1x1 .f32 :=
  shapeCast S1x1x1 (multiReduction .maximumf [0] S1x1 (shapeCast S256x1x1 (multiReduction .maximumf [1] S256x1
    (shapeCast S256x56x1 (multiReduction .maximumf [2] S256x56 (shapeCast S256x56x56 v0 shapeCasts_S1x256x56x56_S256x56x56)
      0xFF800000#32 reduces_S256x56x56_S256x56 (.inl rfl) rfl) shapeCasts_S256x56_S256x56x1)
    0xFF800000#32 reduces_S256x56x1_S256x1 (.inl rfl) rfl) shapeCasts_S256x1_S256x1x1)
    0xFF800000#32 reduces_S256x1x1_S1x1 (.inl rfl) rfl) shapeCasts_S1x1_S1x1x1

/-- A [1,1,1] vector has one index. -/
theorem idx111_eq (a b : S1x1x1.Idx) : a = b :=
  funext fun d => Fin.ext (by
    have hs : S1x1x1.size d = 1 := by revert d; decide
    have ha := lt_of_lt_of_eq (a d).isLt hs
    have hb := lt_of_lt_of_eq (b d).isLt hs
    omega)

/-- `z` is below the body's minimum iff it is below every entry of the block: through three reductions and four casts. -/
theorem le_blkMin_iff (v0 : FVec Ideal S1x256x56x56 .f32) (z : EReal) :
    (∀ u, z ≤ blkMin v0 u) ↔ ∀ y, z ≤ v0 y :=
  (forall_le_shapeCast_iff _ _ z).trans <| (forall_le_minReduction_iff _ _ _ _ z).trans <|
  (forall_le_shapeCast_iff _ _ z).trans <| (forall_le_minReduction_iff _ _ _ _ z).trans <|
  (forall_le_shapeCast_iff _ _ z).trans <| (forall_le_minReduction_iff _ _ _ _ z).trans <|
  forall_le_shapeCast_iff _ _ z

/-- The body's maximum is below `z` iff every entry of the block is. -/
theorem blkMax_le_iff (v0 : FVec Ideal S1x256x56x56 .f32) (z : EReal) :
    (∀ u, blkMax v0 u ≤ z) ↔ ∀ y, v0 y ≤ z :=
  (forall_shapeCast_le_iff _ _ z).trans <| (forall_maxReduction_le_iff _ _ _ _ z).trans <|
  (forall_shapeCast_le_iff _ _ z).trans <| (forall_maxReduction_le_iff _ _ _ _ z).trans <|
  (forall_shapeCast_le_iff _ _ z).trans <| (forall_maxReduction_le_iff _ _ _ _ z).trans <|
  forall_shapeCast_le_iff _ _ z

/-- So the body's minimum IS the infimum of the block's entries, -/
theorem blkMin_apply (v0 : FVec Ideal S1x256x56x56 .f32) (u : S1x1x1.Idx) : blkMin v0 u = ⨅ y, v0 y :=
  eq_iInf_of_forall_le_iff _ _ fun z =>
    ⟨fun hz => (le_blkMin_iff v0 z).1 fun u' => idx111_eq u u' ▸ hz, fun hz => (le_blkMin_iff v0 z).2 hz u⟩

/-- and its maximum their supremum. -/
theorem blkMax_apply (v0 : FVec Ideal S1x256x56x56 .f32) (u : S1x1x1.Idx) : blkMax v0 u = ⨆ y, v0 y :=
  eq_iSup_of_forall_le_iff _ _ fun z =>
    ⟨fun hz => (blkMax_le_iff v0 z).1 fun u' => idx111_eq u u' ▸ hz, fun hz => (blkMax_le_iff v0 z).2 hz u⟩

end Cert.KernelBlock

end
-- ==== Proof.Quant.lean ====
/-
  The specification: per-sample min–max fake quantization, dequantization and clipping, on the extended reals.

  A sample is the set of entries of the input that share their first coordinate `b`. With `lo` the infimum and `hi`
  the supremum of the sample's entries, every entry `v` of the sample is sent to

      min 6 (max 0 ((1000 · (roundHalfEven (254 · (v − lo) / (hi − lo) − 127) / 1000) + 127) · (hi − lo) / 254 + lo)),

  every operation the exact one on the extended reals (the quotient is `Ideal.div`, with its conventions at a zero
  divisor). Both programs compute this same expression of `v`, `lo` and `hi`; they differ only in HOW the extrema of a
  sample are taken (axis after axis over a block, or at once over the flattened sample), which the infimum and the
  supremum do not see. No entry needs to be finite for that.
-/
import Idealize.ShloMosaic.PureOps.Ideal
import Idealize.ShloMosaic.PureOps.Vector

noncomputable section

namespace Cert.Quant

open Idealize.ShloMosaic

/-- The image of an entry `v` of a sample with infimum `lo` and supremum `hi`. -/
def dequant (v lo hi : EReal) : EReal :=
  FloatOps.minimumf (F := Ideal) (φ := .f32) (FloatOps.ofBits .f32 0x40C00000#32)
    (FloatOps.maximumf (FloatOps.ofBits .f32 0x00000000#32)
      (FloatOps.addf (FloatOps.divf (FloatOps.mulf (FloatOps.addf (FloatOps.mulf (FloatOps.ofBits .f32 0x447A0000#32)
        (FloatOps.divf (FloatOps.roundeven (FloatOps.subf (FloatOps.divf (FloatOps.mulf (FloatOps.ofBits .f32 0x437E0000#32)
          (FloatOps.subf v lo)) (FloatOps.subf hi lo)) (FloatOps.ofBits .f32 0x42FE0000#32)))
          (FloatOps.ofBits .f32 0x447A0000#32))) (FloatOps.ofBits .f32 0x42FE0000#32)) (FloatOps.subf hi lo))
        (FloatOps.ofBits .f32 0x437E0000#32)) lo))

/-- The same expression on whole vectors of one shape: `v` the entries, `lo` the sample's infimum and `rng` its
    range `hi − lo`, both already spread over the shape. -/
def dequantVec {s : Shape} (v lo rng : FVec Ideal s .f32) : FVec Ideal s .f32 :=
  minimumf (broadcast s (FloatOps.ofBits .f32 0x40C00000#32))
    (maximumf (broadcast s (FloatOps.ofBits .f32 0x00000000#32))
      (addf (divf (mulf (addf (mulf (broadcast s (FloatOps.ofBits .f32 0x447A0000#32))
        (divf (roundeven (subf (divf (mulf (broadcast s (FloatOps.ofBits .f32 0x437E0000#32)) (subf v lo)) rng)
          (broadcast s (FloatOps.ofBits .f32 0x42FE0000#32))))
          (broadcast s (FloatOps.ofBits .f32 0x447A0000#32)))) (broadcast s (FloatOps.ofBits .f32 0x42FE0000#32))) rng)
        (broadcast s (FloatOps.ofBits .f32 0x437E0000#32))) lo))

/-- Index by index the vector expression is the scalar one. -/
theorem dequantVec_apply {s : Shape} (v lo rng : FVec Ideal s .f32) (l h : EReal) (j : s.Idx)
    (hlo : lo j = l) (hrng : rng j = FloatOps.subf (F := Ideal) (φ := .f32) h l) :
    dequantVec v lo rng j = dequant (v j) l h := by
  show FloatOps.minimumf (F := Ideal) (φ := .f32) (FloatOps.ofBits .f32 0x40C00000#32)
    (FloatOps.maximumf (FloatOps.ofBits .f32 0x00000000#32)
      (FloatOps.addf (FloatOps.divf (FloatOps.mulf (FloatOps.addf (FloatOps.mulf (FloatOps.ofBits .f32 0x447A0000#32)
        (FloatOps.divf (FloatOps.roundeven (FloatOps.subf (FloatOps.divf (FloatOps.mulf (FloatOps.ofBits .f32 0x437E0000#32)
          (FloatOps.subf (v j) (lo j))) (rng j)) (FloatOps.ofBits .f32 0x42FE0000#32)))
          (FloatOps.ofBits .f32 0x447A0000#32))) (FloatOps.ofBits .f32 0x42FE0000#32)) (rng j))
        (FloatOps.ofBits .f32 0x437E0000#32)) (lo j))) = _
  rw [hlo, hrng]
  rfl

/-- The arrays both programs work on. -/
abbrev Arr : Shape := ⟨4, ![64, 256, 56, 56]⟩

/-- The infimum of the entries of sample `b`. -/
def sampleInf (x : Arr.Idx → EReal) (b : ℕ) : EReal := ⨅ i : Arr.Idx, ⨅ (_ : (i 0).val = b), x i

/-- The supremum of the entries of sample `b`. -/
def sampleSup (x : Arr.Idx → EReal) (b : ℕ) : EReal := ⨆ i : Arr.Idx, ⨆ (_ : (i 0).val = b), x i

/-- THE RESULT both programs end with, as one function of the input, index by index. -/
def result (x : Arr.Idx → EReal) : Arr.Idx → EReal :=
  fun i => dequant (x i) (sampleInf x (i 0).val) (sampleSup x (i 0).val)

end Cert.Quant

end
-- ==== Proof.KernelPayload.lean ====
/-
  What the kernel's body stores for ONE block, entry by entry.

  After the two extrema (KernelBlock.lean) the body is the vector form of the clipped dequantization: the block with its
  unit axis cast away, the minimum and the range `max − min` spread over it, and the result cast back. Read at an entry
  `y` of the block, the two casts cancel and the spread values are the block's infimum and its supremum minus its
  infimum: the body stores `dequant (block y) (⨅ block) (⨆ block)`.
-/
import proofs.«135284_j55671366090844_2_alg».proof.Proof.KernelBlock
import proofs.«135284_j55671366090844_2_alg».proof.Proof.Quant
import Idealize.ShloMosaic.Lib.Pipeline.Value

noncomputable section

namespace Cert.KernelBlock

open Cert.KernelIdeal Cert.KernelIdeal.Gen Idealize.ShloMosaic Cert.Bounds Cert.Quant

/-- An entry of a spread vector is SOME entry of the vector that was spread. -/
theorem bcast_entry {s t : Shape} {α : Type} (x : s.Idx → α) (h : s.Broadcasts t) (j : t.Idx) :
    ∃ u, broadcastTo t x h j = x u := ⟨_, rfl⟩

/-- A difference of vectors, at an entry. -/
theorem subf_at {s : Shape} (a b : FVec Ideal s .f32) (u : s.Idx) :
    subf a b u = FloatOps.subf (F := Ideal) (φ := .f32) (a u) (b u) := rfl

/-- The cast back to the block's shape, at an entry: the entry of the re-laid vector at the same row-major place. -/
theorem pay1_apply (w : FVec Ideal S256x56x56 .f32) (y : S1x256x56x56.Idx) :
    k0_pay1 (F := Ideal) w y = w (Shape.reshapeEquiv shapeCasts_S256x56x56_S1x256x56x56 y) := rfl

/-- The body's arithmetic is the vector form of the clipped dequantization, of the block re-laid without its unit axis,
    its minimum and its range spread over the block. -/
theorem pay2_eq (v0 : FVec Ideal S1x256x56x56 .f32) :
    k0_pay2 (F := Ideal) v0 = dequantVec (shapeCast S256x56x56 v0 shapeCasts_S1x256x56x56_S256x56x56)
      (broadcastTo S256x56x56 (blkMin v0) broadcasts_S1x1x1_S256x56x56)
      (broadcastTo S256x56x56 (subf (blkMax v0) (blkMin v0)) broadcasts_S1x1x1_S256x56x56) := rfl

/-- The body's arithmetic at an entry of the re-laid block. -/
theorem pay2_apply (v0 : FVec Ideal S1x256x56x56 .f32) (j : S256x56x56.Idx) :
    k0_pay2 (F := Ideal) v0 j
      = dequant (shapeCast S256x56x56 v0 shapeCasts_S1x256x56x56_S256x56x56 j) (⨅ y, v0 y) (⨆ y, v0 y) := by
  obtain ⟨u, hu⟩ := bcast_entry (blkMin v0) broadcasts_S1x1x1_S256x56x56 j
  obtain ⟨u', hu'⟩ := bcast_entry (subf (blkMax v0) (blkMin v0)) broadcasts_S1x1x1_S256x56x56 j
  have h1 : broadcastTo S256x56x56 (blkMin v0) broadcasts_S1x1x1_S256x56x56 j = ⨅ y, v0 y :=
    hu.trans (blkMin_apply v0 u)
  have h2 : broadcastTo S256x56x56 (subf (blkMax v0) (blkMin v0)) broadcasts_S1x1x1_S256x56x56 j
      = FloatOps.subf (F := Ideal) (φ := .f32) (⨆ y, v0 y) (⨅ y, v0 y) := by
    rw [hu', subf_at, blkMax_apply, blkMin_apply]
  rw [pay2_eq]
  exact dequantVec_apply _ _ _ _ _ j h1 h2

/-- WHAT THE BODY STORES for entry `y` of the block: the clipped dequantization of that entry with the block's extrema. -/
theorem pay_apply (v0 : FVec Ideal S1x256x56x56 .f32) (y : S1x256x56x56.Idx) :
    k0_pay1 (F := Ideal) (k0_pay2 v0) y = dequant (v0 y) (⨅ y', v0 y') (⨆ y', v0 y') :=
  (pay1_apply (k0_pay2 v0) y).trans <| (pay2_apply v0 _).trans <|
    congrArg (fun v => dequant v (⨅ y', v0 y') (⨆ y', v0 y'))
      (congrFun (shapeCast_shapeCast v0 shapeCasts_S1x256x56x56_S256x56x56 shapeCasts_S256x56x56_S1x256x56x56) y)

end Cert.KernelBlock

end
-- ==== Proof.KernelArray.lean ====
/-
  From blocks to the array: the kernel's result array is `Quant.result` of its argument.

  Grid point `t` works on block `t` of the input and of the output: the entries with first coordinate `t`, all of the
  other three axes. The block of the input IS sample `t`, so the infimum and supremum of the block's entries are the
  sample's, and what point `t` writes back is block `t` of `Quant.result` of the input. The 64 blocks cover the output
  array (entry `i` lies in block `i 0`), so after the run the output array is `Quant.result` of the input everywhere.
-/
import proofs.«135284_j55671366090844_2_alg».proof.Proof.Gen.KernelIdeal.Frame
import proofs.«135284_j55671366090844_2_alg».proof.Proof.KernelPayload
import Idealize.ShloMosaic.Lib.Pipeline.Value

noncomputable section

namespace Cert.KernelArray

open Cert.KernelIdeal Cert.KernelIdeal.Gen Idealize.ShloMosaic Idealize.ShloMosaic.TcCoe Idealize.SL.Sem
open Idealize.ShloMosaic.Pipeline (Dat)
open Cert.Bounds Cert.Quant Cert.KernelBlock

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- The printed index maps, decided over the 64 grid points: point `t` takes block `(t, 0, 0, 0)` of the input and of
    the output. -/
theorem block_of_point : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- Entry `y` of the input's block at point `t` is the array's entry `(t, y 1, y 2, y 3)`: its coordinates. -/
theorem in_emb_val (t : Fin cfg0.N) (y : S1x256x56x56.Idx) :
    ((((cfg0.win 0).blk t).view.emb y) 0).val = t.val
    ∧ ((((cfg0.win 0).blk t).view.emb y) 1).val = (y 1).val
    ∧ ((((cfg0.win 0).blk t).view.emb y) 2).val = (y 2).val
    ∧ ((((cfg0.win 0).blk t).view.emb y) 3).val = (y 3).val := by
  obtain ⟨a0, a1, a2, a3, -, -, -, -⟩ := block_of_point t
  have h0 : (y 0).val < 1 := (y 0).isLt
  refine ⟨?_, ?_, ?_, ?_⟩
  · show win0_0.index t (0 : Fin 4) * 1 + 1 * (y 0).val = t.val; omega
  · show win0_0.index t (1 : Fin 4) * 256 + 1 * (y 1).val = (y 1).val; omega
  · show win0_0.index t (2 : Fin 4) * 56 + 1 * (y 2).val = (y 2).val; omega
  · show win0_0.index t (3 : Fin 4) * 56 + 1 * (y 3).val = (y 3).val; omega

/-- The same for the output's block. -/
theorem out_emb_val (t : Fin cfg0.N) (y : S1x256x56x56.Idx) :
    ((((cfg0.win 1).blk t).view.emb y) 0).val = t.val
    ∧ ((((cfg0.win 1).blk t).view.emb y) 1).val = (y 1).val
    ∧ ((((cfg0.win 1).blk t).view.emb y) 2).val = (y 2).val
    ∧ ((((cfg0.win 1).blk t).view.emb y) 3).val = (y 3).val := by
  obtain ⟨-, -, -, -, b0, b1, b2, b3⟩ := block_of_point t
  have h0 : (y 0).val < 1 := (y 0).isLt
  refine ⟨?_, ?_, ?_, ?_⟩
  · show win0_1.index t (0 : Fin 4) * 1 + 1 * (y 0).val = t.val; omega
  · show win0_1.index t (1 : Fin 4) * 256 + 1 * (y 1).val = (y 1).val; omega
  · show win0_1.index t (2 : Fin 4) * 56 + 1 * (y 2).val = (y 2).val; omega
  · show win0_1.index t (3 : Fin 4) * 56 + 1 * (y 3).val = (y 3).val; omega

/-- So the two blocks at a point sit at the same place of their arrays. -/
theorem in_emb_eq_out_emb (t : Fin cfg0.N) (y : S1x256x56x56.Idx) :
    ((cfg0.win 0).blk t).view.emb y = ((cfg0.win 1).blk t).view.emb y := by
  obtain ⟨p0, p1, p2, p3⟩ := in_emb_val t y
  obtain ⟨q0, q1, q2, q3⟩ := out_emb_val t y
  funext a; apply Fin.ext
  match a with
  | ⟨0, _⟩ => exact p0.trans q0.symm
  | ⟨1, _⟩ => exact p1.trans q1.symm
  | ⟨2, _⟩ => exact p2.trans q2.symm
  | ⟨3, _⟩ => exact p3.trans q3.symm

/-- Every entry of sample `t` is an entry of the input's block at point `t`. -/
theorem in_emb_onto (t : Fin cfg0.N) (i : S64x256x56x56.Idx) (hi : (i 0).val = t.val) :
    ∃ y : S1x256x56x56.Idx, ((cfg0.win 0).blk t).view.emb y = i := by
  have i1 : (i 1).val < 256 := (i 1).isLt
  have i2 : (i 2).val < 56 := (i 2).isLt
  have i3 : (i 3).val < 56 := (i 3).isLt
  refine ⟨fun a => match a with
    | ⟨0, _⟩ => ⟨0, Nat.one_pos⟩
    | ⟨1, _⟩ => ⟨(i 1).val, i1⟩
    | ⟨2, _⟩ => ⟨(i 2).val, i2⟩
    | ⟨3, _⟩ => ⟨(i 3).val, i3⟩, ?_⟩
  obtain ⟨p0, p1, p2, p3⟩ := in_emb_val t (fun a => match a with
    | ⟨0, _⟩ => ⟨0, Nat.one_pos⟩
    | ⟨1, _⟩ => ⟨(i 1).val, i1⟩
    | ⟨2, _⟩ => ⟨(i 2).val, i2⟩
    | ⟨3, _⟩ => ⟨(i 3).val, i3⟩)
  funext a; apply Fin.ext
  match a with
  | ⟨0, _⟩ => exact p0.trans hi.symm
  | ⟨1, _⟩ => exact p1
  | ⟨2, _⟩ => exact p2
  | ⟨3, _⟩ => exact p3

/-- WHAT POINT `t` WRITES BACK is block `t` of `Quant.result` of the input array as the region finds it. -/
theorem flushed_eq (c : Dev nD) (t : Fin cfg0.N) :
    (dats m 0 c).flushed 1 t = ((cfg0.win 1).blk t).view.read (Elt Ideal) (result (V m c main_arg0)) := by
  show (cfg0.win 1).cut (grid0.coords t) ((dats m 0 c).after 1 t) = _
  rw [after0_1]
  unfold out0_1
  rw [View.canon_unit_zero offsets_zero]
  simp only [View.ld_unit_zero (S := S1x256x56x56) offsets_zero]
  funext j
  refine (pay_apply (iblk m c 0 t) j).trans ?_
  show dequant (V m c main_arg0 (((cfg0.win 0).blk t).view.emb j))
      (⨅ y, V m c main_arg0 (((cfg0.win 0).blk t).view.emb y))
      (⨆ y, V m c main_arg0 (((cfg0.win 0).blk t).view.emb y))
    = dequant (V m c main_arg0 (((cfg0.win 1).blk t).view.emb j))
      (sampleInf (V m c main_arg0) ((((cfg0.win 1).blk t).view.emb j) 0).val)
      (sampleSup (V m c main_arg0) ((((cfg0.win 1).blk t).view.emb j) 0).val)
  rw [(out_emb_val t j).1, in_emb_eq_out_emb t j]
  congr 1
  · exact iInf_comp_eq (V m c main_arg0) (fun y => ((cfg0.win 0).blk t).view.emb y) (fun i => (i 0).val = t.val)
      (fun y => (in_emb_val t y).1) (in_emb_onto t)
  · exact iSup_comp_eq (V m c main_arg0) (fun y => ((cfg0.win 0).blk t).view.emb y) (fun i => (i 0).val = t.val)
      (fun y => (in_emb_val t y).1) (in_emb_onto t)

/-- An index of the output array is in point `t`'s block iff each coordinate is in the block's range on its axis. -/
theorem mem_blk (t : Fin cfg0.N) (i : S64x256x56x56.Idx) :
    i ∈ ((cfg0.win 1).blk t).view.set ↔ ∀ a : Fin 4, win0_1.index t a * S1x256x56x56.size a ≤ (i a).val
      ∧ (i a).val < win0_1.index t a * S1x256x56x56.size a + S1x256x56x56.size a := by
  show i ∈ ((View.whole main_v0).slice (win0_1.rect t)).set ↔ _
  rw [View.set_slice_whole, Rect.mem_set_unit]
  exact Iff.rfl

/-- THE BLOCKS COVER THE ARRAY: entry `i` lies in the block of the point `i 0`. -/
theorem cover (i : S64x256x56x56.Idx) :
    ∃ t : Fin cfg0.N, (cfg0.win 1).flush t = true ∧ i ∈ ((cfg0.win 1).blk t).view.set := by
  have i0 : (i 0).val < 64 := (i 0).isLt
  have i1 : (i 1).val < 256 := (i 1).isLt
  have i2 : (i 2).val < 56 := (i 2).isLt
  have i3 : (i 3).val < 56 := (i 3).isLt
  obtain ⟨t, ht⟩ : ∃ t : Fin cfg0.N, t.val = (i 0).val := ⟨⟨(i 0).val, i0⟩, rfl⟩
  obtain ⟨-, -, -, -, b0, b1, b2, b3⟩ := block_of_point t
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1; omega
  | ⟨1, _⟩ =>
    show win0_1.index t (1 : Fin 4) * 256 ≤ (i 1).val ∧ (i 1).val < win0_1.index t (1 : Fin 4) * 256 + 256; omega
  | ⟨2, _⟩ =>
    show win0_1.index t (2 : Fin 4) * 56 ≤ (i 2).val ∧ (i 2).val < win0_1.index t (2 : Fin 4) * 56 + 56; omega
  | ⟨3, _⟩ =>
    show win0_1.index t (3 : Fin 4) * 56 ≤ (i 3).val ∧ (i 3).val < win0_1.index t (3 : Fin 4) * 56 + 56; omega

/-- THE OUTPUT ARRAY after the run is `Quant.result` of the input array. -/
theorem final (c : Dev nD) : (dats m 0 c).arrAt 1 cfg0.N = result (V m c main_arg0) :=
  (dats m 0 c).arrAt_eq_of_cover 1 (result (V m c main_arg0)) (fun t _ => flushed_eq m c t) cover

/-- THE KERNEL'S RUN, read: every weakly fair execution terminates with the result array at `Quant.result` of the
    argument array and the argument unchanged (the generated frame run, its post read through `final`). -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelArray

end
-- ==== Proof.RefValue.lean ====
/-
  The reference computes `Quant.result`.

  The reference flattens each sample to one row of 802816 entries, takes the row's minimum from +∞ and its maximum from
  −∞ in one reduce each, and applies the clipped dequantization entry by entry. A row of the flattened array is exactly
  a sample: position `k` of row `b` is the entry with coordinates `(b, k / 3136, k / 56 % 56, k % 56)`, and every
  entry with first coordinate `b` is at position `(c · 56 + h) · 56 + w` of that row. So the row's minimum is the
  sample's infimum and its maximum the sample's supremum, and the rest is the same expression, read index by index.
-/
import proofs.«135284_j55671366090844_2_alg».proof.Proof.Gen.ReferenceIdeal.Read
import proofs.«135284_j55671366090844_2_alg».proof.Proof.Bounds
import proofs.«135284_j55671366090844_2_alg».proof.Proof.Quant

noncomputable section

namespace Cert.RefValue

open Cert.ReferenceIdeal Cert.ReferenceIdeal.Gen Cert.ReferenceIdeal.Read Idealize.ShloMosaic Cert.Bounds Cert.Quant

/-- An index of the flattened array drops to row `j` iff its row coordinate is `j`'s. -/
theorem drop_eq_iff (i : S64x802816.Idx) (j : S64.Idx) :
    reducesTo_S64x802816_S64_d1.drop i = j ↔ (i 0).val = (j 0).val := by
  have e : ((reducesTo_S64x802816_S64_d1.drop i) 0 : ℕ) = i 0 :=
    Shape.ReducesTo.drop_apply_val_of_eq reducesTo_S64x802816_S64_d1 i 0 0
  constructor
  · intro h; rw [← h]; exact e.symm
  · intro h; funext b; apply Fin.ext
    match b with
    | ⟨0, _⟩ => exact e.trans h

/-- The flattened row `b` re-indexes exactly the entries of sample `b`: every position of the row is an entry of the
    sample, -/
theorem row_mem (b : ℕ) (k : {i : S64x802816.Idx // (i 0).val = b}) : ((idx_main_v0 k.1) 0).val = b := by
  have h0 : (k.1 0).val = b := k.2
  have h1 : (k.1 1).val < 802816 := (k.1 1).isLt
  show ((k.1 0).val * 802816 + (k.1 1).val) / 802816 = b
  omega

/-- and every entry of the sample is at a position of the row. -/
theorem row_onto (b : ℕ) (i : Arr.Idx) (hi : (i 0).val = b) :
    ∃ k : {i : S64x802816.Idx // (i 0).val = b}, idx_main_v0 k.1 = i := by
  have i0 : (i 0).val < 64 := (i 0).isLt
  have i1 : (i 1).val < 256 := (i 1).isLt
  have i2 : (i 2).val < 56 := (i 2).isLt
  have i3 : (i 3).val < 56 := (i 3).isLt
  refine ⟨⟨fun a => match a with
    | ⟨0, _⟩ => ⟨(i 0).val, i0⟩
    | ⟨1, _⟩ => ⟨((i 1).val * 56 + (i 2).val) * 56 + (i 3).val, by show _ < 802816; omega⟩, hi⟩, ?_⟩
  funext a; apply Fin.ext
  match a with
  | ⟨0, _⟩ => show ((i 0).val * 802816 + (((i 1).val * 56 + (i 2).val) * 56 + (i 3).val)) / 802816 = (i 0).val; omega
  | ⟨1, _⟩ => show ((i 0).val * 802816 + (((i 1).val * 56 + (i 2).val) * 56 + (i 3).val)) / 3136 % 256 = (i 1).val; omega
  | ⟨2, _⟩ => show ((i 0).val * 802816 + (((i 1).val * 56 + (i 2).val) * 56 + (i 3).val)) / 56 % 56 = (i 2).val; omega
  | ⟨3, _⟩ => show ((i 0).val * 802816 + (((i 1).val * 56 + (i 2).val) * 56 + (i 3).val)) % 56 = (i 3).val; omega

/-- The reference's per-sample minimum is the sample's infimum. -/
theorem v1_apply (x0 : FVec Ideal S64x256x56x56 .f32) (j : S64.Idx) :
    val_main_v1 (F := Ideal) x0 j = sampleInf x0 (j 0).val := by
  have H : ∀ z : EReal, z ≤ val_main_v1 (F := Ideal) x0 j
      ↔ ∀ k : {i : S64x802816.Idx // (i 0).val = (j 0).val}, z ≤ x0 (idx_main_v0 k.1) := by
    intro z
    refine (le_hostMin_iff (val_main_v0 (F := Ideal) x0) (val_main_cst (F := Ideal)) reducesTo_S64x802816_S64_d1 h_S_
      posInf j z).trans ?_
    constructor
    · intro h k
      have hk := h k.1 ((drop_eq_iff k.1 j).2 k.2)
      rwa [val_main_v0_apply] at hk
    · intro h i hi; rw [val_main_v0_apply]; exact h ⟨i, (drop_eq_iff i j).1 hi⟩
  rw [eq_iInf_of_forall_le_iff _ _ H]
  exact iInf_comp_eq x0 (fun k : {i : S64x802816.Idx // (i 0).val = (j 0).val} => idx_main_v0 k.1)
    (fun i => (i 0).val = (j 0).val) (row_mem _) (row_onto _)

/-- The reference's per-sample maximum is the sample's supremum. -/
theorem v3_apply (x0 : FVec Ideal S64x256x56x56 .f32) (j : S64.Idx) :
    val_main_v3 (F := Ideal) x0 j = sampleSup x0 (j 0).val := by
  have H : ∀ z : EReal, val_main_v3 (F := Ideal) x0 j ≤ z
      ↔ ∀ k : {i : S64x802816.Idx // (i 0).val = (j 0).val}, x0 (idx_main_v0 k.1) ≤ z := by
    intro z
    refine (hostMax_le_iff (val_main_v0 (F := Ideal) x0) (val_main_cst_0 (F := Ideal)) reducesTo_S64x802816_S64_d1 h_S_
      negInf j z).trans ?_
    constructor
    · intro h k
      have hk := h k.1 ((drop_eq_iff k.1 j).2 k.2)
      rwa [val_main_v0_apply] at hk
    · intro h i hi; rw [val_main_v0_apply]; exact h ⟨i, (drop_eq_iff i j).1 hi⟩
  rw [eq_iSup_of_forall_le_iff _ _ H]
  exact iSup_comp_eq x0 (fun k : {i : S64x802816.Idx // (i 0).val = (j 0).val} => idx_main_v0 k.1)
    (fun i => (i 0).val = (j 0).val) (row_mem _) (row_onto _)

/-- The minimum, re-laid to [64,1,1,1] and spread over the array, at entry `i` is the infimum of `i`'s sample. -/
theorem lo_apply (x0 : FVec Ideal S64x256x56x56 .f32) (u : S64x1x1x1.Idx) (b : ℕ) (hu : (u 0).val = b)
    : val_main_v2 (F := Ideal) x0 u = sampleInf x0 b := by
  rw [val_main_v2_apply, v1_apply]
  congr 1
  have h1 : (u 1).val < 1 := (u 1).isLt
  have h2 : (u 2).val < 1 := (u 2).isLt
  have h3 : (u 3).val < 1 := (u 3).isLt
  show (((u 0).val * 1 + (u 1).val) * 1 + (u 2).val) * 1 + (u 3).val = b
  omega

/-- The maximum likewise. -/
theorem hi_apply (x0 : FVec Ideal S64x256x56x56 .f32) (u : S64x1x1x1.Idx) (b : ℕ) (hu : (u 0).val = b)
    : val_main_v4 (F := Ideal) x0 u = sampleSup x0 b := by
  rw [val_main_v4_apply, v3_apply]
  congr 1
  have h1 : (u 1).val < 1 := (u 1).isLt
  have h2 : (u 2).val < 1 := (u 2).isLt
  have h3 : (u 3).val < 1 := (u 3).isLt
  show (((u 0).val * 1 + (u 1).val) * 1 + (u 2).val) * 1 + (u 3).val = b
  omega

/-- THE REFERENCE'S RESULT is `Quant.result` of its argument: the last stage, read index by index down to the argument
    and the two extrema. -/
theorem ref_eq (x0 : FVec Ideal S64x256x56x56 .f32) : val_main_v27 (F := Ideal) x0 = result x0 := by
  funext i
  have hlo6 : val_main_v6 (F := Ideal) x0 i = sampleInf x0 (i 0).val := by
    rw [val_main_v6_apply]; exact lo_apply x0 _ _ rfl
  have hlo25 : val_main_v25 (F := Ideal) x0 i = sampleInf x0 (i 0).val := by
    rw [val_main_v25_apply]; exact lo_apply x0 _ _ rfl
  have hr10 : val_main_v10 (F := Ideal) x0 i
      = FloatOps.subf (F := Ideal) (φ := .f32) (sampleSup x0 (i 0).val) (sampleInf x0 (i 0).val) := by
    rw [val_main_v10_apply, val_main_v5_apply, hi_apply x0 _ _ rfl, lo_apply x0 _ _ rfl]
  have hr21 : val_main_v21 (F := Ideal) x0 i
      = FloatOps.subf (F := Ideal) (φ := .f32) (sampleSup x0 (i 0).val) (sampleInf x0 (i 0).val) := by
    rw [val_main_v21_apply, val_main_v5_apply, hi_apply x0 _ _ rfl, lo_apply x0 _ _ rfl]
  rw [val_main_v27_apply, val_main_call1_v4_apply, val_main_call1_v3_apply, val_main_cst_8_apply,
    val_main_call1_v2_apply, val_main_call1_v1_apply, val_main_call1_v0_apply, val_main_cst_7_apply,
    val_main_v26_apply, val_main_v24_apply, val_main_v22_apply, val_main_v20_apply, val_main_v18_apply,
    val_main_v17_apply, val_main_cst_4_apply, val_main_v16_apply, val_main_v14_apply, val_main_v13_apply,
    val_main_v11_apply, val_main_v9_apply, val_main_v8_apply, val_main_cst_1_apply, val_main_v7_apply,
    val_main_v12_apply, val_main_cst_2_apply, val_main_v15_apply, val_main_cst_3_apply, val_main_v19_apply,
    val_main_cst_5_apply, val_main_v23_apply, val_main_cst_6_apply, hlo6, hlo25, hr10, hr21]
  rfl

end Cert.RefValue

end
-- ==== Proof.lean ====
/-
  Per-sample min–max fake quantization, dequantization and clipping to [0, 6]: the kernel against its jnp reference,
  over the extended reals.

  Both programs send every entry `v` of a sample (the entries sharing the first coordinate) to
  `min 6 (max 0 ((1000 · (roundHalfEven (254 · (v − lo) / (hi − lo) − 127) / 1000) + 127) · (hi − lo) / 254 + lo))`, `lo`
  and `hi` the sample's minimum and maximum, with the same literals and the same operations in the same order
  (Quant.lean). They differ in how the extrema are taken: the kernel, one sample per grid point, reduces the block's
  last axis, then the middle one, then the first; the reference flattens the sample and reduces once. Either way the
  minimum is the infimum of the sample's entries and the maximum their supremum — a bound of all the entries passes
  unchanged through every reduction and every re-laying (Bounds.lean) — so the two results are one function of the
  input (`Quant.result`): KernelBlock / KernelPayload / KernelArray read it off the kernel's run, RefValue off the
  reference's. Nothing here needs an entry to be finite: the law that joins the two sides is the associativity and
  commutativity of min and max, which hold on all of the extended reals.

  The idealization rewrote no operation of the kernel, so `preserves` is trivial; the three frames are the programs'
  runs with the results forgotten.
-/
import proofs.«135284_j55671366090844_2_alg».proof.Defs
import proofs.«135284_j55671366090844_2_alg».proof.Proof.Gen.Kernel
import proofs.«135284_j55671366090844_2_alg».proof.Proof.Gen.Kernel.Skeleton
import proofs.«135284_j55671366090844_2_alg».proof.Proof.Gen.Kernel.Launch
import proofs.«135284_j55671366090844_2_alg».proof.Proof.Gen.Kernel.Points
import proofs.«135284_j55671366090844_2_alg».proof.Proof.Gen.Kernel.Frame
import proofs.«135284_j55671366090844_2_alg».proof.Proof.Gen.KernelIdeal
import proofs.«135284_j55671366090844_2_alg».proof.Proof.Gen.KernelIdeal.Skeleton
import proofs.«135284_j55671366090844_2_alg».proof.Proof.Gen.KernelIdeal.Launch
import proofs.«135284_j55671366090844_2_alg».proof.Proof.Gen.KernelIdeal.Points
import proofs.«135284_j55671366090844_2_alg».proof.Proof.Gen.KernelIdeal.Frame
import proofs.«135284_j55671366090844_2_alg».proof.Proof.Gen.ReferenceIdeal
import proofs.«135284_j55671366090844_2_alg».proof.Proof.Gen.Pre_finite_inputs
import proofs.«135284_j55671366090844_2_alg».proof.Proof.Gen.ReferenceIdeal.Run
import proofs.«135284_j55671366090844_2_alg».proof.Proof.Gen.ReferenceIdeal.Read
import proofs.«135284_j55671366090844_2_alg».proof.Proof.KernelArray
import proofs.«135284_j55671366090844_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel (hKernel := Cert.Kernel.Gen.facts)
    (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame is its run with the result forgotten. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the argument both idealized programs end with `Quant.result` of it: the kernel by
    `KernelArray.run`, the reference by its run, whose term is the last stage (`val_main_v27_eq`), which is
    `Quant.result` (`RefValue.ref_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Quant.result (m ((c.tc : Thread Cert.KernelIdeal.nD Cert.KernelIdeal.τ).loc Cert.KernelIdeal.main_arg0)),
    Cert.KernelArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
